-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x1024 : Shape := ⟨3, ![1, 65536, 1024]⟩
abbrev S1024x1024 : Shape := ⟨2, ![1024, 1024]⟩
abbrev S_ : Shape := ⟨0, ![]⟩

class Facts : Prop where
  bcast_S_S1x65536x1024 : S_.BroadcastsInDim S1x65536x1024 (![] : Fin 0 → Fin S1x65536x1024.rank)
  reducesTo_S1x65536x1024_S_d0_1_2 : S1x65536x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x65536x1024 .f32) (main_arg1 : FVec F S1024x1024 .f32) : IVec S_ 1 :=
  let main_v0 : FVec F S1x65536x1024 .f32 := Host.absf main_arg0
  let main_cst : FVec F S_ .f32 := constant S_ .f32 0x7F800000#32
  let main_v1 : FVec F S1x65536x1024 .f32 := broadcastInDim S1x65536x1024 ![] bcast_S_S1x65536x1024 main_cst
  let main_v2 : IVec S1x65536x1024 1 := cmpf .olt main_v0 main_v1
  let main_c : IVec S_ 1 := constantI S_ 1 1#1
  let main_v3 : IVec S_ 1 := (fun x v => Host.reduce IntOp.andi x v reducesTo_S1x65536x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1x65536x1024 : Shape := ⟨3, ![1, 65536, 1024]⟩
abbrev S1024x1024 : Shape := ⟨2, ![1024, 1024]⟩
abbrev S65536x1024 : Shape := ⟨2, ![65536, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩

abbrev nBuf : Space → Nat
  | .hbm => 13
  | .vmem => 7
  | .smem => 0
  | _ => 0

abbrev bufTy : (tb : Table) → Fin (tcTables nBuf tb) → BufTy
  | .hbm, ⟨0, _⟩ => ⟨S1x65536x1024, .f32⟩
  | .hbm, ⟨1, _⟩ => ⟨S1024x1024, .f32⟩
  | .hbm, ⟨2, _⟩ => ⟨S65536x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S65536x1024, .f32⟩
  | .hbm, ⟨12, _⟩ => ⟨S1x65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S1x65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x65536x1024_S65536x1024 : S1x65536x1024.ShapeCasts S65536x1024
  reducesTo_S1024x1024_S1024_d1 : S1024x1024.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  bitsLt_bf16_f32 : FTy.bits .bf16 < FTy.bits .f32
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  bcast_S65536x1024_S1x65536x1024_1_2 : S65536x1024.BroadcastsInDim S1x65536x1024 (![1, 2] : Fin 2 → Fin S1x65536x1024.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x65536x1024 : Shape := ⟨3, ![1, 65536, 1024]⟩
abbrev S1024x1024 : Shape := ⟨2, ![1024, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x65536x1024, .f32⟩
  | .hbm, ⟨1, _⟩ => ⟨S1024x1024, .f32⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S1x65536x1024, .f32⟩
  | _, _ => ⟨S1x65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  shapeCasts_S1x65536x1024_S65536x1024 : S1x65536x1024.ShapeCasts S65536x1024
  reducesTo_S65536x1024_S65536_d1 : S65536x1024.ReducesTo [1] S65536
  h_S_ : 0 < S_.numel
  bcast_S65536_S65536x1_0 : S65536.BroadcastsInDim S65536x1 (![0] : Fin 1 → Fin S65536x1.rank)
  reducesTo_S1024x1024_S1024_d1 : S1024x1024.ReducesTo [1] S1024
  bcast_S1024_S1024x1_0 : S1024.BroadcastsInDim S1024x1 (![0] : Fin 1 → Fin S1024x1.rank)
  transposes_S1024x1024_S1024x1024_1_0 : S1024x1024.Transposes [1, 0] S1024x1024
  transposes_S1024x1_S1x1024_1_0 : S1024x1.Transposes [1, 0] S1x1024
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S65536x1024_S1x65536x1024_1_2 : S65536x1024.BroadcastsInDim S1x65536x1024 (![1, 2] : Fin 2 → Fin S1x65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  The cosine of projected rows against the rows of the projecting matrix, as one function on the extended reals.

  A row `xr` of 1024 numbers is projected through a 1024×1024 matrix `e`: coordinate `j` of the projection is
  `∑ k, xr k · e (k, j)`. The cosine of that projection against row `q` of `e` is their inner product divided by the
  product of their Euclidean lengths, the product clamped from below by a small positive constant:

      cos(xr, q) = (∑ j, proj j · e (q, j)) / max (‖proj‖ · ‖e (q, ·)‖) ε.

  Every operation is the exact one on the extended reals; no law of arithmetic is used here, so nothing is asked of the
  entries (they may be infinite). The whole result holds, at `(0, p, q)`, the cosine of row `p` of the first argument.
-/
import Idealize.ShloMosaic.Lib.ValueIdx
import Idealize.ShloMosaic.PureOps.Ideal

noncomputable section

open scoped BigOperators

namespace Cert.Cosine

open Idealize.ShloMosaic Idealize.ShloMosaic.ValueIdx

/-- A 1024×1024 matrix of extended reals. -/
abbrev Mat : Type := (⟨2, ![1024, 1024]⟩ : Shape).Idx → EReal
/-- A stack of one 65536×1024 matrix. -/
abbrev Stack : Type := (⟨3, ![1, 65536, 1024]⟩ : Shape).Idx → EReal

/-- The clamp under the denominator: the value of the single-precision word both programs print for `1e-8`. -/
def eps : EReal := Ideal.ofBits .f32 0x322BCC77#32

/-- Coordinate `j` of the row `xr` projected through `e`. -/
def proj (xr : Fin 1024 → EReal) (e : Mat) (j : Fin 1024) : EReal := ∑ k : Fin 1024, xr k * e (ix2 k j)

/-- The Euclidean length of a row. -/
def len (v : Fin 1024 → EReal) : EReal := Ideal.sqrt (∑ j : Fin 1024, v j * v j)

/-- Row `q` of a matrix. -/
def rowOf (e : Mat) (q : Fin 1024) : Fin 1024 → EReal := fun j => e (ix2 q j)

/-- The cosine of the projection of `xr` against row `q` of `e`. -/
def cosRow (xr : Fin 1024 → EReal) (e : Mat) (q : Fin 1024) : EReal :=
  Ideal.div (∑ j : Fin 1024, proj xr e j * e (ix2 q j)) (max (len (proj xr e) * len (rowOf e q)) eps)

/-- Row `p` of the stack's one matrix. -/
def rowAt (x : Stack) (p : Fin 65536) : Fin 1024 → EReal := fun k => x (ix3 (0 : Fin 1) p k)

/-- The result as a 65536×1024 matrix: entry `(p, q)` is the cosine of row `p` against row `q` of `e`. -/
def cosFlat (x : Stack) (e : Mat) : (⟨2, ![65536, 1024]⟩ : Shape).Idx → EReal :=
  fun i => cosRow (rowAt x (i 0)) e (i 1)

theorem cosFlat_apply (x : Stack) (e : Mat) (p : Fin 65536) (q : Fin 1024) :
    cosFlat x e (ix2 p q) = cosRow (rowAt x p) e q := rfl

end Cert.Cosine

end
-- ==== Proof.RefStages.lean ====
/-
  The reference program, stage by stage, is the cosine of projected rows.

  The reference multiplies the stack's matrix by `e`, takes the Euclidean length of every product row and of every row
  of `e` (a sum of squares from zero, then a square root), multiplies the product by `e` transposed, and divides by the
  clamped outer product of the two families of lengths. Each stage read at coordinates is one piece of the function
  `Cosine.cosRow`: a sum started from the zero word is the plain sum, a host product is the plain finite sum over the
  contracted coordinate, and the layout steps (a reshape that drops the leading unit axis, the transposes, the spreads
  of a column and of a row) only rename coordinates.
-/
import proofs.«132246_j9577777070758_2_alg».proof.Proof.Gen.ReferenceIdeal.Read
import proofs.«132246_j9577777070758_2_alg».proof.Proof.Spec

noncomputable section

open scoped BigOperators

namespace Cert.ReferenceIdeal.Stages

open Cert.ReferenceIdeal Cert.ReferenceIdeal.Read Idealize.ShloMosaic Idealize.ShloMosaic.ValueIdx Cert.Cosine

variable (x0 : (⟨S1x65536x1024, .f32⟩ : BufTy).Contents (Elt Ideal)) (x1 : (⟨S1024x1024, .f32⟩ : BufTy).Contents (Elt Ideal))

/-- Dropping the leading unit axis: entry `(p, k)` of the matrix is entry `(0, p, k)` of the stack. -/
theorem flat_apply (p : Fin 65536) (k : Fin 1024) : val_main_v0 (F := Ideal) x0 (ix2 p k) = rowAt x0 p k := by
  rw [val_main_v0_apply]
  refine congrArg x0 (funext fun a => Fin.ext ?_)
  match a with
  | ⟨0, _⟩ => rfl
  | ⟨1, _⟩ =>
    show (p.val * 1024 + k.val) / 1024 % 65536 = p.val
    have hp := p.isLt; have hk := k.isLt; omega
  | ⟨2, _⟩ =>
    show (p.val * 1024 + k.val) % 1024 = k.val
    have hk := k.isLt; omega

/-- The product of the matrix with `e`: the projection of row `p`. -/
theorem proj_apply (p : Fin 65536) (j : Fin 1024) : val_main_v1 (F := Ideal) x0 x1 (ix2 p j) = proj (rowAt x0 p) x1 j := by
  rw [val_main_v1_apply]
  refine Finset.sum_congr rfl fun k _ => ?_
  have hl : lidx_main_v1 (ix2 p j) k = ix2 p k := funext fun a => by match a with | ⟨0, _⟩ => rfl | ⟨1, _⟩ => rfl
  have hr : ridx_main_v1 (ix2 p j) k = ix2 k j := funext fun a => by match a with | ⟨0, _⟩ => rfl | ⟨1, _⟩ => rfl
  rw [hl, hr, flat_apply]

/-- The sum of squares of the projection's row `p`. -/
theorem projSq_apply (p : Fin 65536) :
    val_main_call0_v1 (F := Ideal) x0 x1 (ix1 p) = ∑ j : Fin 1024, proj (rowAt x0 p) x1 j * proj (rowAt x0 p) x1 j := by
  rw [val_main_call0_v1_apply, val_main_call0_cst_apply, Ideal.ofBits_def, Ideal.ofBits_zero_f32, zero_add]
  refine Finset.sum_congr rfl fun j _ => ?_
  have hi : idx_main_call0_v1 (ix1 p) j = ix2 p j := funext fun a => by match a with | ⟨0, _⟩ => rfl | ⟨1, _⟩ => rfl
  rw [hi, val_main_call0_v0_apply, Ideal.mulf_def, proj_apply]

/-- The length of the projection's row `p`, kept as a column. -/
theorem projLen_apply (p : Fin 65536) (u : Fin 1) : val_main_v2 (F := Ideal) x0 x1 (ix2 p u) = len (proj (rowAt x0 p) x1) := by
  have hi : idx_main_call0_v2 (ix2 p u) = ix1 p := funext fun a => by match a with | ⟨0, _⟩ => rfl
  rw [val_main_v2_apply, Ideal.hostUnary_sqrt_def, val_main_call0_v2_apply, hi, projSq_apply]
  rfl

/-- The sum of squares of row `q` of `e`. -/
theorem rowSq_apply (q : Fin 1024) :
    val_main_call1_v1 (F := Ideal) x1 (ix1 q) = ∑ j : Fin 1024, rowOf x1 q j * rowOf x1 q j := by
  rw [val_main_call1_v1_apply, val_main_call1_cst_apply, Ideal.ofBits_def, Ideal.ofBits_zero_f32, zero_add]
  refine Finset.sum_congr rfl fun j _ => ?_
  have hi : idx_main_call1_v1 (ix1 q) j = ix2 q j := funext fun a => by match a with | ⟨0, _⟩ => rfl | ⟨1, _⟩ => rfl
  rw [hi, val_main_call1_v0_apply, Ideal.mulf_def]
  rfl

/-- The length of row `q` of `e`, kept as a column. -/
theorem rowLen_apply (q : Fin 1024) (u : Fin 1) : val_main_v3 (F := Ideal) x1 (ix2 q u) = len (rowOf x1 q) := by
  have hi : idx_main_call1_v2 (ix2 q u) = ix1 q := funext fun a => by match a with | ⟨0, _⟩ => rfl
  rw [val_main_v3_apply, Ideal.hostUnary_sqrt_def, val_main_call1_v2_apply, hi, rowSq_apply]
  rfl

/-- The product of the projection with `e` transposed: row `p` of the projection against row `q` of `e`. -/
theorem dots_apply (p : Fin 65536) (q : Fin 1024) :
    val_main_v5 (F := Ideal) x0 x1 (ix2 p q) = ∑ j : Fin 1024, proj (rowAt x0 p) x1 j * x1 (ix2 q j) := by
  rw [val_main_v5_apply]
  refine Finset.sum_congr rfl fun j _ => ?_
  have hl : lidx_main_v5 (ix2 p q) j = ix2 p j := funext fun a => by match a with | ⟨0, _⟩ => rfl | ⟨1, _⟩ => rfl
  have hr : ridx_main_v5 (ix2 p q) j = ix2 j q := funext fun a => by match a with | ⟨0, _⟩ => rfl | ⟨1, _⟩ => rfl
  have ht : idx_main_v4 (ix2 j q) = ix2 q j := funext fun a => by match a with | ⟨0, _⟩ => rfl | ⟨1, _⟩ => rfl
  rw [hl, hr, proj_apply, val_main_v4_apply, ht]

/-- The clamped outer product of the lengths. -/
theorem denom_apply (p : Fin 65536) (q : Fin 1024) :
    val_main_v11 (F := Ideal) x0 x1 (ix2 p q) = max (len (proj (rowAt x0 p) x1) * len (rowOf x1 q)) eps := by
  have h7 : idx_main_v7 (ix2 p q) = ix2 p (0 : Fin 1) := funext fun a => by match a with | ⟨0, _⟩ => rfl | ⟨1, _⟩ => rfl
  have h8 : idx_main_v8 (ix2 p q) = ix2 (0 : Fin 1) q := funext fun a => by match a with | ⟨0, _⟩ => rfl | ⟨1, _⟩ => rfl
  have h6 : idx_main_v6 (ix2 (0 : Fin 1) q) = ix2 q (0 : Fin 1) := funext fun a => by match a with | ⟨0, _⟩ => rfl | ⟨1, _⟩ => rfl
  rw [val_main_v11_apply, val_main_v9_apply, Ideal.maximumf_def, Ideal.mulf_def, val_main_v7_apply, h7, projLen_apply,
    val_main_v8_apply, h8, val_main_v6_apply, h6, rowLen_apply, val_main_v10_apply, val_main_cst_apply]
  rfl

/-- The quotient: the reference's matrix result is the cosine matrix. -/
theorem quotient_eq : val_main_v12 (F := Ideal) x0 x1 = cosFlat x0 x1 := by
  funext i
  obtain ⟨p, q, rfl⟩ : ∃ (p : Fin 65536) (q : Fin 1024), i = ix2 p q := ⟨i 0, i 1, eq_ix2 i⟩
  rw [val_main_v12_apply, Ideal.hostDivf_def, dots_apply, denom_apply]
  rfl

end Cert.ReferenceIdeal.Stages

end
-- ==== Proof.LibRowReduce.lean ====
/-
  Reductions along a row, and the two "keep the reduced axis" layout steps, read at an index at the ideal instance
  (floats are extended reals, every operation exact), free of any program.

  For a `[m, n]` array reduced over its second axis to `[m]`:
    * a kernel's lane sum at row `p` is the sum over the `n` columns of that row, a lane maximum the fold of `max` from
      the accumulator's value over them;
    * a host reduce with a maximum body at row `p` is the same fold from its initial value.
  A reduced vector `[a]` is put back beside the array by a cast to a column `[a, 1]` and a broadcast of that column to
  `[a, b]`; entry `(p, c)` of the result is entry `p` of the vector.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.LibRowReduce

open Idealize.ShloMosaic Idealize.ShloMosaic.ValueIdx

variable {m n : Nat}

/-- The reduced index `p` with column `k` put back is `(p, k)`. -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A lane sum over a row. -/
theorem rowSum_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] ⟨1, ![m]⟩ src acc h hφ hacc (ix1 p) = ∑ k : Fin n, src (ix2 p k) := by
  rw [Ideal.multiReduction_add_single]
  exact Finset.sum_congr rfl fun k _ => congrArg src (lift_row h p k)

/-- A lane maximum over a row: the fold of `max` from the accumulator's value. -/
theorem rowMax_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] ⟨1, ![m]⟩ src acc h hφ hacc (ix1 p)
      = (Finset.univ : Finset (Fin n)).fold max (Ideal.ofBits .f32 acc) (fun k => src (ix2 p k)) := by
  rw [Ideal.multiReduction_maximumf_single]
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduce with a maximum body over a row: the fold of `max` from the initial value. -/
theorem hostRowMax_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce (FloatOps.maximumf (F := Ideal) (φ := .f32)) x init h' hu (ix1 p)
      = (Finset.univ : Finset (Fin n)).fold max (init (Shape.Idx.first hu)) (fun k => x (ix2 p k)) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- A fold of `max` from `a` is at least `a`, so taking the maximum with `a` once more changes nothing. -/
theorem max_fold_max {ι : Type*} (s : Finset ι) (a : EReal) (f : ι → EReal) :
    max a (s.fold max a f) = s.fold max a f :=
  max_eq_right ((Finset.le_fold_max a).2 (Or.inl le_rfl))

variable {α : Type} {a b : Nat}

/-- An `[a]` array cast to the column `[a, 1]` reads, at `(p, u)`, the operand at `p`, whatever the unit coordinate. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRowReduce

end
-- ==== Proof.LibHostRow.lean ====
/-
  Host operations along a row, read at an index at the ideal instance (floats are extended reals, every operation
  exact), free of any program.

    * a host float sum of a `[m, n]` array over its second axis, at row `p`: the initial value plus the sum over the
      `n` columns of that row;
    * a vector `[b]` broadcast to one row `[1, b]`, and one row `[1, b]` broadcast over `a` rows to `[a, b]`: entry
      `(·, q)` of either is entry `q` of the vector, or `(0, q)` of the row.
-/
import Idealize.ShloMosaic.Lib.ValueIdx
import Idealize.ShloMosaic.Lib.Pipeline.Value
import Idealize.ShloMosaic.PureOps.Ideal.Laws
import Idealize.ShloMosaic.PureOps.Reduce
import proofs.«132246_j9577777070758_2_alg».proof.Proof.LibRowReduce

noncomputable section

open scoped BigOperators

namespace Cert.LibHostRow

open Idealize.ShloMosaic Idealize.ShloMosaic.ValueIdx

variable {m n : Nat}

/-- The host's float sum over a row: the initial value plus the sum over the row's columns. -/
theorem hostRowSum_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduceAdd (F := Ideal) (φ := .f32) x init h' hu (ix1 p)
      = init (Shape.Idx.first hu) + ∑ k : Fin n, x (ix2 p k) := by
  simp only [Host.reduceAdd, Ideal.hostReduceAdd_def]
  rw [Ideal.hostReduceAdd_single h' h]
  exact congrArg (_ + ·) (Finset.sum_congr rfl fun k _ => congrArg x (Cert.LibRowReduce.lift_row h p k))

variable {α : Type} {a b : Nat}

/-- A vector `[b]` broadcast to the one row `[1, b]`, read at `(u, q)`: the vector's entry `q`. -/
theorem vecToRow_apply (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ ![1] h x (ix2 u q) = x (ix1 q) := by
  refine broadcastInDim_apply _ h x _ _ ?_
  intro d
  obtain rfl : d = 0 := Subsingleton.elim _ _
  show q.val = if b = 1 then 0 else q.val
  have := q.isLt
  split <;> omega

/-- One row `[1, b]` broadcast over `a` rows to `[a, b]`, read at `(p, q)`: the row's entry `(0, q)`. -/
theorem rowToRows_apply (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x _ _ ?_
  intro d
  match d with
  | ⟨0, _⟩ => rfl
  | ⟨1, _⟩ =>
    show q.val = if b = 1 then 0 else q.val
    have := q.isLt
    split <;> omega

end Cert.LibHostRow

end
-- ==== Proof.LibColumnsInDim.lean ====
/-
  Column layouts read by coordinates, for any element type: a vector placed as an [a, 1] column (by a broadcast along a
  new unit axis or by a cast), an [a, 1] column spread along the lanes of an [a, b] array, and a scalar cast to a 1x1 array.
-/
import Idealize.ShloMosaic.Lib.Pipeline.Value
import Idealize.ShloMosaic.Lib.ValueIdx

namespace Cert.LibColumnsInDim

open Idealize.ShloMosaic Idealize.ShloMosaic.ValueIdx

variable {α : Type}

/-- A vector of length `a` broadcast in dimension 0 to an `[a, 1]` column reads, at `(p, 0)`, the vector's entry `p`. -/
theorem broadcastInDim_a_a1_apply {a : ℕ} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply ![0] h x (ix2 p (0 : Fin 1)) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, q)`, the column's entry of row `p`. -/
theorem broadcastInDim_a1_ab_apply {a b : ℕ} (y : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h y (ix2 p q) = y (ix2 p (0 : Fin 1)) := by
  refine broadcastInDim_apply ![0, 1] h y (ix2 p q) (ix2 p (0 : Fin 1)) fun ax => ?_
  match ax with
  | ⟨0, _⟩ =>
    show p.val = if a = 1 then 0 else p.val
    split
    · have := p.isLt; omega
    · rfl
  | ⟨1, _⟩ => rfl

/-- A vector of length `a` cast to an `[a, 1]` column reads, at `(p, 0)`, the vector's entry `p`. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- A scalar (a rank-0 array) cast to any shape reads the scalar wherever it is read. -/
theorem shapeCast_of_scalar_apply {t : Shape} (s : (⟨0, ![]⟩ : Shape).Idx → α) (h : (⟨0, ![]⟩ : Shape).ShapeCasts t) (j : t.Idx) :
    shapeCast t s h j = s ix0 := by
  unfold shapeCast
  exact congrArg s (eq_ix0 _)

end Cert.LibColumnsInDim
-- ==== Proof.LibColumnAsRow.lean ====
/-
  A column recast as a row, read by coordinates, free of any program.

  An `[a, 1]` array and a `[1, a]` array list the same `a` entries in the same row-major order, so the cast of one to
  the other reads, at `(u, q)`, the column's entry `(q, 0)`.
-/
import Idealize.ShloMosaic.Lib.Pipeline.Value
import Idealize.ShloMosaic.Lib.ValueIdx

noncomputable section

namespace Cert.LibColumnAsRow

open Idealize.ShloMosaic Idealize.ShloMosaic.ValueIdx

variable {α : Type} {a : Nat}

/-- An `[a, 1]` column cast to the row `[1, a]` reads, at `(u, q)`, the column's entry of row `q`. -/
theorem shapeCast_a1_1a_apply (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu]; omega)

end Cert.LibColumnAsRow

end
-- ==== Proof.Entry.lean ====
/-
  What the kernel's windows find in their arrays when the region is entered.

  Before the launch the program reshapes the stack to its one 65536×1024 matrix, narrows `e` to half precision (the
  identity on the extended reals) and transposes that copy, and computes the length of every row of `e` — the sum of
  the row's squares from zero, a square root — as a column, recast as a row. So at entry:
    * the first window's array holds, at `(p, k)`, the stack's entry `(0, p, k)`;
    * the third holds `e`, the second `e` transposed;
    * the fourth holds, at `(0, q)`, the Euclidean length of row `q` of `e`.
-/
import proofs.«132246_j9577777070758_2_alg».proof.Proof.Gen.KernelIdeal.Frame
import proofs.«132246_j9577777070758_2_alg».proof.Proof.LibHostRow
import proofs.«132246_j9577777070758_2_alg».proof.Proof.LibColumnsInDim
import proofs.«132246_j9577777070758_2_alg».proof.Proof.LibColumnAsRow
import proofs.«132246_j9577777070758_2_alg».proof.Proof.Spec
import Idealize.ShloMosaic.Lib.ValueLayout
import Idealize.ShloMosaic.Lib.StableHlo.Run

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Cosine

variable (m : (ℓ : Loc nD τ sig) → Buf (Elt Ideal) ℓ)

/-- The stack the program is launched with, on core `c`. -/
abbrev stack (c : Dev nD) : Stack := m ((c : Thread nD τ).loc main_arg0)
/-- The matrix `e` the program is launched with, on core `c`. -/
abbrev emb (c : Dev nD) : Mat := m ((c : Thread nD τ).loc main_arg1)

theorem x_term (c : Dev nD) : (V m c main_v0 : S65536x1024.Idx → EReal)
    = shapeCast S65536x1024 (m ((c : Thread nD τ).loc main_arg0)) shapeCasts_S1x65536x1024_S65536x1024 := by
  show StableHlo.after hostOps0 (fun b => m (c, b)) (Proc.devRef .tc main_v0) = _
  after_results <;> rfl

theorem e_term (c : Dev nD) : (V m c main_v6 : S1024x1024.Idx → EReal)
    = truncf (F := Ideal) (s := S1024x1024) (φ := .f32) .bf16 (m ((c : Thread nD τ).loc main_arg1)) bitsLt_bf16_f32 := by
  show StableHlo.after hostOps0 (fun b => m (c, b)) (Proc.devRef .tc main_v6) = _
  after_results <;> rfl

theorem eT_term (c : Dev nD) : (V m c main_v7 : S1024x1024.Idx → EReal)
    = transpose S1024x1024 [1, 0]
        (truncf (F := Ideal) (s := S1024x1024) (φ := .f32) .bf16 (m ((c : Thread nD τ).loc main_arg1)) bitsLt_bf16_f32)
        transposes_S1024x1024_S1024x1024_1_0 := by
  show StableHlo.after hostOps0 (fun b => m (c, b)) (Proc.devRef .tc main_v7) = _
  after_results <;> rfl

theorem n_term (c : Dev nD) : (V m c main_v5 : S1x1024.Idx → EReal)
    = shapeCast S1x1024 (Host.sqrt (F := Ideal) (broadcastInDim S1024x1 ![0] bcast_S1024_S1024x1_0
        (Host.reduceAdd (F := Ideal) (mulf (m ((c : Thread nD τ).loc main_arg1)) (m ((c : Thread nD τ).loc main_arg1)))
          (constant (F := Ideal) S_ .f32 0x00000000#32) reducesTo_S1024x1024_S1024_d1 h_S_))) shapeCasts_S1024x1_S1x1024 := by
  show StableHlo.after hostOps0 (fun b => m (c, b)) (Proc.devRef .tc main_v5) = _
  after_results <;> rfl

/-- The host's square root at an entry is the square root of the entry. -/
theorem hostSqrt_apply {s : Shape} {φ : FTy} (x : FVec Ideal s φ) (i : s.Idx) : Host.sqrt x i = Ideal.sqrt (x i) := rfl

/-- The first window's array: the stack's matrix, entry by entry. -/
theorem x_apply (c : Dev nD) (p : Fin 65536) (k : Fin 1024) :
    (V m c main_v0 : S65536x1024.Idx → EReal) (ix2 p k) = rowAt (stack m c) p k := by
  rw [x_term]
  exact shapeCast_1ab_ab_apply _ _ p k

/-- The third window's array: `e`. -/
theorem e_apply (c : Dev nD) (i : S1024x1024.Idx) : (V m c main_v6 : S1024x1024.Idx → EReal) i = emb m c i := by
  rw [e_term]
  rfl

/-- The second window's array: `e` transposed. -/
theorem eT_apply (c : Dev nD) (j q : Fin 1024) :
    (V m c main_v7 : S1024x1024.Idx → EReal) (ix2 j q) = emb m c (ix2 q j) := by
  rw [eT_term]
  exact transpose_ix2_apply _ _ j q

/-- The fourth window's array: the lengths of `e`'s rows, as one row. -/
theorem n_apply (c : Dev nD) (u : Fin 1) (q : Fin 1024) :
    (V m c main_v5 : S1x1024.Idx → EReal) (ix2 u q) = len (rowOf (emb m c) q) := by
  rw [n_term]
  refine (Cert.LibColumnAsRow.shapeCast_a1_1a_apply _ _ u q).trans ?_
  refine (hostSqrt_apply _ _).trans ?_
  unfold len
  refine congrArg Ideal.sqrt ?_
  refine (Cert.LibColumnsInDim.broadcastInDim_a_a1_apply _ _ q).trans ?_
  refine (Cert.LibHostRow.hostRowSum_apply _ _ _ (by decide) _ q).trans ?_
  rw [constant_apply, Ideal.ofBits_zero_f32, zero_add]
  rfl

end Cert.KernelIdeal.Entry

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.Tile.lean ====
/-
  One tile of the kernel's arithmetic, read at an entry.

  At a grid point the body holds a tile `xb` of 1024 rows of the first argument, the whole matrix `e`, a matrix `eT`
  (which will be `e` transposed), and a row `nr` of 1024 numbers (which will be the lengths of `e`'s rows). It
  multiplies `xb` by `e`, takes each product row's length, multiplies the product by `eT`, and divides by the clamped
  product of lengths. Read at `(r, q)` on the extended reals, where a change of float format is the identity and a
  matrix product into zeros is the plain finite sum, that is

      (∑ j, s j · eT (j, q)) / max (‖s‖ · nr (0, q)) ε,     s = the projection of row `r` of `xb` through `e`.
-/
import proofs.«132246_j9577777070758_2_alg».proof.Proof.Gen.KernelIdeal.Skeleton
import proofs.«132246_j9577777070758_2_alg».proof.Proof.LibPlainDot
import proofs.«132246_j9577777070758_2_alg».proof.Proof.LibRowReduce
import proofs.«132246_j9577777070758_2_alg».proof.Proof.Spec
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.Cosine

/-- The body's two products both contract the left operand's columns with the right operand's rows. -/
theorem dot_plain : dot_S1024x1024_S1024x1024_S1024x1024_1_0_0_1_n_n = DotDims.plain 1024 1024 1024 := rfl

/-- The first product at `(r, j)`: coordinate `j` of row `r` of the tile projected through `e`. -/
theorem first_apply (xb : FVec Ideal S1024x1024 .f32) (e : FVec Ideal S1024x1024 .bf16)
    (hb : FTy.bf16.bits < FTy.f32.bits) (r j : Fin 1024) :
    matmul dot_S1024x1024_S1024x1024_S1024x1024_1_0_0_1_n_n none (truncf .bf16 xb hb) e
        (constant S1024x1024 .f32 0x00000000#32) (ix2 r j)
      = proj (rowOf xb r) e j :=
  Cert.LibPlainDot.matmul_plain_apply (φ₁ := .bf16) (φ₂ := .bf16) none (truncf .bf16 xb hb) e r j

/-- The body's stored value at `(r, q)`. -/
theorem pay_apply (xb : FVec Ideal S1024x1024 .f32) (e eT : FVec Ideal S1024x1024 .bf16) (nr : FVec Ideal S1x1024 .f32)
    (r q : Fin 1024) :
    k0_pay1 (F := Ideal) xb e eT nr (ix2 r q)
      = Ideal.div (∑ j : Fin 1024, proj (rowOf xb r) e j * eT (ix2 j q))
          (max (len (proj (rowOf xb r) e) * nr (ix2 (0 : Fin 1) q)) eps) := by
  unfold k0_pay1
  simp only [shapeCast_self, divf_apply, maximumf_apply, mulf_apply]
  refine congrArg₂ Ideal.div ?_ (congrArg₂ max (congrArg₂ (· * ·) ?_ ?_) rfl)
  · -- the second product: the projection's row against column q of eT
    refine (Cert.LibPlainDot.matmul_plain_apply (φ₁ := .bf16) (φ₂ := .bf16) none _ _ r q).trans ?_
    refine Finset.sum_congr rfl fun j _ => ?_
    rw [truncf_apply, first_apply]
  · -- the length of the projection's row, kept as a column and spread along the row
    refine (Cert.LibRowReduce.broadcastTo_a1_ab_apply _ _ r q).trans ?_
    show Ideal.sqrt _ = Ideal.sqrt _
    refine congrArg Ideal.sqrt ?_
    refine (Cert.LibRowReduce.shapeCast_a_a1_apply _ _ r (0 : Fin 1)).trans ?_
    refine (Cert.LibRowReduce.rowSum_apply _ _ _ _ _ r).trans ?_
    refine Finset.sum_congr rfl fun j _ => ?_
    rw [mulf_apply, first_apply]
  · -- the row of lengths spread down the rows
    exact broadcastTo_1b_ab_apply _ _ r q

end Cert.KernelIdeal.Tile

end
-- ==== Proof.Point.lean ====
/-
  One stored entry is one entry of the cosine matrix.

  If row `r` of the tile is row `p` of the stack's matrix, the body's `e` is the argument `e`, column `q` of its `eT`
  is row `q` of `e`, and entry `(0, q)` of its row of lengths is the length of row `q` of `e`, then what the body
  stores at `(r, q)` is the cosine of row `p` against row `q`: the two expressions are then the same sums, quotient
  and clamp, term by term.
-/
import proofs.«132246_j9577777070758_2_alg».proof.Proof.Tile

noncomputable section

open scoped BigOperators

namespace Cert.KernelIdeal.Tile

open Cert.KernelIdeal Cert.KernelIdeal.Gen Idealize.ShloMosaic Idealize.ShloMosaic.ValueIdx Cert.Cosine

theorem point_value (a0 : Stack) (a1 : Mat) (xb : FVec Ideal S1024x1024 .f32) (e eT : FVec Ideal S1024x1024 .bf16)
    (nr : FVec Ideal S1x1024 .f32) (r q : Fin 1024) (p : Fin 65536)
    (hx : ∀ k : Fin 1024, xb (ix2 r k) = rowAt a0 p k) (he : ∀ k j : Fin 1024, e (ix2 k j) = a1 (ix2 k j))
    (heT : ∀ j : Fin 1024, eT (ix2 j q) = a1 (ix2 q j)) (hn : nr (ix2 (0 : Fin 1) q) = len (rowOf a1 q)) :
    k0_pay1 (F := Ideal) xb e eT nr (ix2 r q) = cosFlat a0 a1 (ix2 p q) := by
  rw [pay_apply, cosFlat_apply]
  have hp : proj (rowOf xb r) e = proj (rowAt a0 p) a1 := funext fun j => Finset.sum_congr rfl fun k _ => by
    show xb (ix2 r k) * e (ix2 k j) = rowAt a0 p k * a1 (ix2 k j)
    rw [hx, he]
  rw [hp, hn]
  unfold cosRow
  refine congrArg₂ Ideal.div (Finset.sum_congr rfl fun j _ => ?_) rfl
  rw [heT]

end Cert.KernelIdeal.Tile

end
-- ==== Proof.Blocks.lean ====
/-
  From the tiles to the whole matrix.

  The grid has 64 points. At point `t` the first window's block is rows `1024·t … 1024·t + 1023` of the stack's matrix,
  the output's block the same rows of the result; the other three windows' blocks are their whole arrays at every
  point. So what point `t` writes back is, entry by entry, the cosine matrix read through the output's block at `t`
  (one stored entry is one entry of the cosine matrix), the 64 blocks cover all 65536 rows (row `i` lies in the block
  of point `i / 1024`), and the output's array ends holding the cosine matrix.
-/
import proofs.«132246_j9577777070758_2_alg».proof.Proof.Gen.KernelIdeal.Frame
import proofs.«132246_j9577777070758_2_alg».proof.Proof.Entry
import proofs.«132246_j9577777070758_2_alg».proof.Proof.Point
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Cosine Cert.KernelIdeal.Entry
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the first window and the output move down one block of rows per point, the
    other three stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first window's block at point `t`: rows `1024·t + ·` of its array. -/
theorem blk0_apply (c : Dev nD) (t : Fin cfg0.N) (x : S1024x1024.Idx) (k : S65536x1024.Idx)
    (hk0 : (k 0).val = t.val * 1024 + (x 0).val) (hk1 : (k 1).val = (x 1).val) :
    (iblk m c 0 t : Vec Ideal S1024x1024 .f32) x = (V m c main_v0 : S65536x1024.Idx → EReal) k := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The second window's block is its whole array. -/
theorem blk1_apply (c : Dev nD) (t : Fin cfg0.N) (x : S1024x1024.Idx) :
    (iblk m c 1 t : Vec Ideal S1024x1024 .bf16) x = (V m c main_v7 : S1024x1024.Idx → EReal) x := by
  obtain ⟨-, -, e0, e1, -⟩ := idx_facts t
  unfold iblk
  rw [View.read_apply]
  show V m c main_v7 _ = V m c main_v7 _
  refine congrArg (V m c main_v7) (funext fun a => Fin.ext ?_)
  match a with
  | ⟨0, _⟩ => show win0_1.index t 0 * 1024 + 1 * (x 0).val = (x 0).val; rw [e0]; omega
  | ⟨1, _⟩ => show win0_1.index t 1 * 1024 + 1 * (x 1).val = (x 1).val; rw [e1]; omega

/-- The third window's block is its whole array. -/
theorem blk2_apply (c : Dev nD) (t : Fin cfg0.N) (x : S1024x1024.Idx) :
    (iblk m c 2 t : Vec Ideal S1024x1024 .bf16) x = (V m c main_v6 : S1024x1024.Idx → EReal) x := by
  obtain ⟨-, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_2.index t 0 * 1024 + 1 * (x 0).val = (x 0).val; rw [e0]; omega
  | ⟨1, _⟩ => show win0_2.index t 1 * 1024 + 1 * (x 1).val = (x 1).val; rw [e1]; omega

/-- The fourth window's block is its whole array. -/
theorem blk3_apply (c : Dev nD) (t : Fin cfg0.N) (x : S1x1024.Idx) :
    (iblk m c 3 t : Vec Ideal S1x1024 .f32) x = (V m c main_v5 : S1x1024.Idx → EReal) x := by
  obtain ⟨-, -, -, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-- What point `t` writes back is the cosine matrix read through the output's block at `t`. -/
theorem flushed_eq (c : Dev nD) (t : Fin cfg0.N) :
    (dats m 0 c).flushed 4 t = ((cfg0.win 4).blk t).view.read (Elt Ideal) (cosFlat (stack m c) (emb m c)) := by
  have hN : cfg0.N = 64 := N_0
  obtain ⟨-, -, -, -, -, -, -, -, e0, e1⟩ := idx_facts t
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  funext y
  rw [View.read_apply]
  show k0_pay1 (iblk m c 0 t) (iblk m c 2 t) (iblk m c 1 t) (iblk m c 3 t) y
    = cosFlat (stack m c) (emb m c) (((cfg0.win 4).blk t).view.emb y)
  obtain ⟨r, q, rfl⟩ : ∃ (r q : Fin 1024), y = ix2 r q := ⟨y 0, y 1, eq_ix2 y⟩
  have hr := r.isLt
  have ht := t.isLt
  have hp : t.val * 1024 + r.val < 65536 := by omega
  have hemb : ((cfg0.win 4).blk t).view.emb (ix2 r q) = ix2 (⟨t.val * 1024 + r.val, hp⟩ : Fin 65536) q :=
    funext fun a => Fin.ext (by
      match a with
      | ⟨0, _⟩ => show win0_4.index t 0 * 1024 + 1 * r.val = t.val * 1024 + r.val; rw [e0]; omega
      | ⟨1, _⟩ => show win0_4.index t 1 * 1024 + 1 * q.val = q.val; rw [e1]; omega)
  rw [hemb]
  exact Tile.point_value (stack m c) (emb m c) (iblk m c 0 t) (iblk m c 2 t) (iblk m c 1 t) (iblk m c 3 t) r q
    ⟨t.val * 1024 + r.val, hp⟩
    (fun k => (blk0_apply m c t (ix2 r k) (ix2 (⟨t.val * 1024 + r.val, hp⟩ : Fin 65536) k) rfl rfl).trans
      (x_apply m c ⟨t.val * 1024 + r.val, hp⟩ k))
    (fun k j => (blk2_apply m c t (ix2 k j)).trans (e_apply m c (ix2 k j)))
    (fun j => (blk1_apply m c t (ix2 j q)).trans (eT_apply m c j q))
    ((blk3_apply m c t (ix2 (0 : Fin 1) q)).trans (n_apply m c 0 q))

/-- An index of the output's array is in point `t`'s block iff each coordinate is in the block's range on its axis. -/
theorem mem_blk (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8).slice (win0_4.rect t)).set ↔ _
  rw [View.set_slice_whole, Rect.mem_set_unit]
  exact Iff.rfl

/-- Every entry of the output's array is written back by some point: row `i` by point `i / 1024`. -/
theorem cover (i : S65536x1024.Idx) :
    ∃ t : Fin cfg0.N, (cfg0.win 4).flush t = true ∧ i ∈ ((cfg0.win 4).blk t).view.set := by
  have hN : cfg0.N = 64 := N_0
  have hi0 : (i 0).val < 65536 := (i 0).isLt
  have hi1 : (i 1).val < 1024 := (i 1).isLt
  have ht : (i 0).val / 1024 < cfg0.N := by rw [hN]; omega
  obtain ⟨-, -, -, -, -, -, -, -, e0, e1⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ 0 * 1024 ≤ (i 0).val
      ∧ (i 0).val < win0_4.index ⟨(i 0).val / 1024, ht⟩ 0 * 1024 + 1024
    rw [e0]
    show (i 0).val / 1024 * 1024 ≤ (i 0).val ∧ (i 0).val < (i 0).val / 1024 * 1024 + 1024
    omega
  | ⟨1, _⟩ =>
    show win0_4.index ⟨(i 0).val / 1024, ht⟩ 1 * 1024 ≤ (i 1).val
      ∧ (i 1).val < win0_4.index ⟨(i 0).val / 1024, ht⟩ 1 * 1024 + 1024
    rw [e1]
    omega

/-- The output's array after the region: the cosine matrix. -/
theorem final (c : Dev nD) : (dats m 0 c).arrAt 4 cfg0.N = cosFlat (stack m c) (emb m c) :=
  (dats m 0 c).arrAt_eq_of_cover 4 (cosFlat (stack m c) (emb m c)) (fun t _ => flushed_eq m c t) cover

end Cert.KernelIdeal.Blocks

end
-- ==== Proof.Whole.lean ====
/-
  The idealized kernel's whole run.

  After the region the program puts the leading unit axis back on the output's array, which ends the region holding the
  cosine matrix. So every weakly fair execution terminates with the result at the cosine matrix under a leading unit
  axis, and with both arguments as they were launched.
-/
import proofs.«132246_j9577777070758_2_alg».proof.Proof.Gen.KernelIdeal.Frame
import proofs.«132246_j9577777070758_2_alg».proof.Proof.Blocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo Cert.Cosine Cert.KernelIdeal.Entry

variable (m : (ℓ : Loc nD τ sig) → Buf (Elt Ideal) ℓ) (ρ : Dev nD → PrngReg)

/-- The result: the cosine matrix of the launch arguments, under a leading unit axis. -/
def result (c : Dev nD) : Buf (Elt Ideal) ((c : Thread nD τ).loc main_v9) :=
  broadcastInDim S1x65536x1024 ![1, 2] bcast_S65536x1024_S1x65536x1024_1_2 (cosFlat (stack m c) (emb m c))

/-- The line after the region reads the output's array as the region left it. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  rw [(Pipeline.withArrays_arr spec0 launch0.win.arr_inj c _ _ 4).trans (Blocks.final m c)]
  rfl

theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v9 (Pipeline.mem_restRefs_of main_v9 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.lean ====
/- The kernel and its reference compute one function.

   Both programs take a stack of one 65536×1024 matrix `x` and a 1024×1024 matrix `e`, project every row of `x` through
   `e`, and return the cosine of each projected row against each row of `e`:
   `(∑ j, s j · e (q, j)) / max (‖s‖ · ‖e (q, ·)‖) ε` with `s = row p of x · e`, under a leading unit axis.
   The kernel does it 1024 rows at a time over a grid of 64 points, with `e` and its transpose narrowed to half precision
   and the lengths of `e`'s rows computed once before the launch; the reference does it in one piece. On the extended
   reals a change of float format is the identity and a matrix product or a sum along a row is the plain finite sum, so
   the two read the same, entry by entry, with no law of arithmetic between them and nothing asked of the inputs.
   The three frames are the generated ones (the reference's is its run with the result dropped); the idealization
   rewrote nothing, so it preserves trivially. -/
import proofs.«132246_j9577777070758_2_alg».proof.Defs
import proofs.«132246_j9577777070758_2_alg».proof.Proof.Gen.Kernel
import proofs.«132246_j9577777070758_2_alg».proof.Proof.Gen.Kernel.Skeleton
import proofs.«132246_j9577777070758_2_alg».proof.Proof.Gen.Kernel.Launch
import proofs.«132246_j9577777070758_2_alg».proof.Proof.Gen.Kernel.Points
import proofs.«132246_j9577777070758_2_alg».proof.Proof.Gen.Kernel.Frame
import proofs.«132246_j9577777070758_2_alg».proof.Proof.Gen.KernelIdeal
import proofs.«132246_j9577777070758_2_alg».proof.Proof.Gen.KernelIdeal.Skeleton
import proofs.«132246_j9577777070758_2_alg».proof.Proof.Gen.KernelIdeal.Launch
import proofs.«132246_j9577777070758_2_alg».proof.Proof.Gen.KernelIdeal.Points
import proofs.«132246_j9577777070758_2_alg».proof.Proof.Gen.KernelIdeal.Frame
import proofs.«132246_j9577777070758_2_alg».proof.Proof.Gen.ReferenceIdeal
import proofs.«132246_j9577777070758_2_alg».proof.Proof.Gen.Pre_finite_inputs
import proofs.«132246_j9577777070758_2_alg».proof.Proof.Gen.ReferenceIdeal.Run
import proofs.«132246_j9577777070758_2_alg».proof.Proof.Gen.ReferenceIdeal.Read
import proofs.«132246_j9577777070758_2_alg».proof.Proof.RefStages
import proofs.«132246_j9577777070758_2_alg».proof.Proof.Whole
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel ends at the cosine matrix of its arguments under a leading unit
    axis, and the reference's last stage is the same leading axis put on its quotient, which is that cosine matrix. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  unfold Cert.ReferenceIdeal.Read.val_main_v13 Cert.KernelIdeal.Whole.result
  rw [Cert.ReferenceIdeal.Stages.quotient_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
